-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S128 : Shape := ⟨1, ![128]⟩
abbrev S128x10 : Shape := ⟨2, ![128, 10]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_

variable [Facts]

def fn_part1 {F : FTy → Type} [FloatOps F] (main_arg4 : FVec F S128x10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg4
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  main_v23

def fn {F : FTy → Type} [FloatOps F] (main_arg0 : FVec F S16384x2048 .f32) (main_arg1 : FVec F S64x2048 .f32) (main_arg2 : FVec F S64x2048 .f32) (main_arg3 : FVec F S128 .f32) (main_arg4 : FVec F S128x10 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S16384x2048 : Shape := ⟨2, ![16384, 2048]⟩
abbrev S64x2048 : Shape := ⟨2, ![64, 2048]⟩
abbrev S128 : Shape := ⟨1, ![128]⟩
abbrev S128x10 : Shape := ⟨2, ![128, 10]⟩
abbrev S128x2048 : Shape := ⟨2, ![128, 2048]⟩
abbrev S_ : Shape := ⟨0, ![]⟩
abbrev S64 : Shape := ⟨1, ![64]⟩
abbrev S1x128 : Shape := ⟨2, ![1, 128]⟩
abbrev S128x1 : Shape := ⟨2, ![128, 1]⟩
abbrev S1x10 : Shape := ⟨2, ![1, 10]⟩
abbrev S2048x128 : Shape := ⟨2, ![2048, 128]⟩
abbrev S16384x10 : Shape := ⟨2, ![16384, 10]⟩
abbrev S1024x2048 : Shape := ⟨2, ![1024, 2048]⟩
abbrev S1024x10 : Shape := ⟨2, ![1024, 10]⟩
abbrev S1024x128 : Shape := ⟨2, ![1024, 128]⟩

abbrev nBuf : Space → Nat
  | .hbm => 37
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64x2048, .f32⟩
  | .hbm, ⟨3, _⟩ => ⟨S128, .f32⟩
  | .hbm, ⟨4, _⟩ => ⟨S128x10, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S_, .f32⟩
  | .hbm, ⟨9, _⟩ => ⟨S64x2048, .f32⟩
  | .hbm, ⟨10, _⟩ => ⟨S64x2048, .i1⟩
  | .hbm, ⟨11, _⟩ => ⟨S64x2048, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64x2048, .f32⟩
  | .hbm, ⟨16, _⟩ => ⟨S64x2048, .i1⟩
  | .hbm, ⟨17, _⟩ => ⟨S64x2048, .f32⟩
  | .hbm, ⟨18, _⟩ => ⟨S_, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S128x1, .f32⟩
  | .hbm, ⟨29, _⟩ => ⟨S128x10, .f32⟩
  | .hbm, ⟨30, _⟩ => ⟨S128x10, .f32⟩
  | .hbm, ⟨31, _⟩ => ⟨S128x10, .bf16⟩
  | .hbm, ⟨32, _⟩ => ⟨S1x128, .f32⟩
  | .hbm, ⟨33, _⟩ => ⟨S1x10, .f32⟩
  | .hbm, ⟨34, _⟩ => ⟨S2048x128, .f32⟩
  | .hbm, ⟨35, _⟩ => ⟨S2048x128, .bf16⟩
  | .hbm, ⟨36, _⟩ => ⟨S16384x10, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S1x128, .f32⟩
  | .local _ .vmem, ⟨4, _⟩ => ⟨S128x10, .bf16⟩
  | .local _ .vmem, ⟨5, _⟩ => ⟨S1x10, .f32⟩
  | .local _ .vmem, ⟨6, _⟩ => ⟨S1024x10, .f32⟩
  | .local _ .vmem, ⟨7, _⟩ => ⟨S1024x10, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S64x2048_S64x2048_S128x2048_d0 : Shape.Concatenates [S64x2048, S64x2048] S128x2048 0
  bcast_S_S64x2048 : S_.BroadcastsInDim S64x2048 (![] : Fin 0 → Fin S64x2048.rank)
  reducesTo_S64x2048_S64_d1 : S64x2048.ReducesTo [1] S64
  h_S_ : 0 < S_.numel
  concatenates_S64_S64_S128_d0 : Shape.Concatenates [S64, S64] S128 0
  shapeCasts_S128_S1x128 : S128.ShapeCasts S1x128
  bcast_S_S64 : S_.BroadcastsInDim S64 (![] : Fin 0 → Fin S64.rank)
  shapeCasts_S128_S128x1 : S128.ShapeCasts S128x1
  bcast_S128x1_S128x10_0_1 : S128x1.BroadcastsInDim S128x10 (![0, 1] : Fin 2 → Fin S128x10.rank)
  bitsLt_bf16_f32 : FTy.bits .bf16 < FTy.bits .f32
  transposes_S128x2048_S2048x128_1_0 : S128x2048.Transposes [1, 0] S2048x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1x128_S128x10_S1x10_1_0_0_1_n_n_wf : DotDims.WF S1x128 S128x10 S1x10 [1] [0] [0] [1] [] []
  dot_S1024x2048_S2048x128_S1024x128_1_0_0_1_n_n_wf : DotDims.WF S1024x2048 S2048x128 S1024x128 [1] [0] [0] [1] [] []
  dot_S1024x128_S128x10_S1024x10_1_0_0_1_n_n_wf : DotDims.WF S1024x128 S128x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x10.size a ≤ S128x10.size a
  hwx0_3 : ∀ i : grid0.Coords, EltTy.bits .bf16 = 32 ∨ (Rect.block (s := S128x10) S128x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x10.size a ≤ S16384x10.size a
  hwx0_5 : ∀ i : grid0.Coords, EltTy.bits .f32 = 32 ∨ (Rect.block (s := S16384x10) S1024x10.size (cc0_transform_5 i) (hinb0_5 i)).WholeWords (EltTy.packing .f32)

variable [Facts₀]

def dot_S1x128_S128x10_S1x10_1_0_0_1_n_n : DotDims S1x128 S128x10 S1x10 where
  lhsContracting := [1]
  rhsContracting := [0]
  lhsNonContracting := [0]
  rhsNonContracting := [1]
  lhsBatch := []
  rhsBatch := []
  wf := dot_S1x128_S128x10_S1x10_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1024x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S128 : Shape := ⟨1, ![128]⟩
abbrev S128x10 : Shape := ⟨2, ![128, 10]⟩
abbrev S_ : Shape := ⟨0, ![]⟩
abbrev S2048x64 : Shape := ⟨2, ![2048, 64]⟩
abbrev S16384x64 : Shape := ⟨2, ![16384, 64]⟩
abbrev S16384x128 : Shape := ⟨2, ![16384, 128]⟩
abbrev S1x128 : Shape := ⟨2, ![1, 128]⟩
abbrev S16384x10 : Shape := ⟨2, ![16384, 10]⟩

abbrev nBuf : Space → Nat
  | .hbm => 135
  | .vmem => 0
  | .smem => 0
  | _ => 0

abbrev hbmTy0_0 (i : Nat) : BufTy := match i % 128 with
  | 0 => ⟨S16384x2048, .f32⟩
  | 1 => ⟨S64x2048, .f32⟩
  | 2 => ⟨S64x2048, .f32⟩
  | 3 => ⟨S128, .f32⟩
  | 4 => ⟨S128x10, .f32⟩
  | 5 => ⟨S_, .f32⟩
  | 6 => ⟨S64x2048, .f32⟩
  | 7 => ⟨S64x2048, .f32⟩
  | 8 => ⟨S64x2048, .f32⟩
  | 9 => ⟨S64x2048, .f32⟩
  | 10 => ⟨S64x2048, .f32⟩
  | 11 => ⟨S64x2048, .f32⟩
  | 12 => ⟨S_, .f32⟩
  | 13 => ⟨S64x2048, .f32⟩
  | 14 => ⟨S64x2048, .f32⟩
  | 15 => ⟨S64x2048, .f32⟩
  | 16 => ⟨S64x2048, .f32⟩
  | 17 => ⟨S64x2048, .f32⟩
  | 18 => ⟨S64x2048, .f32⟩
  | 19 => ⟨S_, .f32⟩
  | 20 => ⟨S64x2048, .f32⟩
  | 21 => ⟨S64x2048, .f32⟩
  | 22 => ⟨S64x2048, .f32⟩
  | 23 => ⟨S64x2048, .f32⟩
  | 24 => ⟨S_, .f32⟩
  | 25 => ⟨S64x2048, .f32⟩
  | 26 => ⟨S64x2048, .f32⟩
  | 27 => ⟨S_, .f32⟩
  | 28 => ⟨S64x2048, .f32⟩
  | 29 => ⟨S64x2048, .f32⟩
  | 30 => ⟨S_, .f32⟩
  | 31 => ⟨S64x2048, .f32⟩
  | 32 => ⟨S64x2048, .f32⟩
  | 33 => ⟨S64x2048, .f32⟩
  | 34 => ⟨S64x2048, .f32⟩
  | 35 => ⟨S64x2048, .f32⟩
  | 36 => ⟨S_, .f32⟩
  | 37 => ⟨S64x2048, .f32⟩
  | 38 => ⟨S64x2048, .f32⟩
  | 39 => ⟨S64x2048, .f32⟩
  | 40 => ⟨S64x2048, .f32⟩
  | 41 => ⟨S_, .f32⟩
  | 42 => ⟨S64x2048, .f32⟩
  | 43 => ⟨S64x2048, .f32⟩
  | 44 => ⟨S_, .f32⟩
  | 45 => ⟨S64x2048, .f32⟩
  | 46 => ⟨S64x2048, .f32⟩
  | 47 => ⟨S64x2048, .f32⟩
  | 48 => ⟨S_, .f32⟩
  | 49 => ⟨S64x2048, .f32⟩
  | 50 => ⟨S64x2048, .f32⟩
  | 51 => ⟨S64x2048, .f32⟩
  | 52 => ⟨S64x2048, .f32⟩
  | 53 => ⟨S_, .f32⟩
  | 54 => ⟨S64x2048, .f32⟩
  | 55 => ⟨S64x2048, .f32⟩
  | 56 => ⟨S64x2048, .f32⟩
  | 57 => ⟨S64x2048, .f32⟩
  | 58 => ⟨S_, .f32⟩
  | 59 => ⟨S64x2048, .f32⟩
  | 60 => ⟨S64x2048, .f32⟩
  | 61 => ⟨S_, .f32⟩
  | 62 => ⟨S64x2048, .f32⟩
  | 63 => ⟨S64x2048, .f32⟩
  | 64 => ⟨S_, .f32⟩
  | 65 => ⟨S64x2048, .f32⟩
  | 66 => ⟨S64x2048, .f32⟩
  | 67 => ⟨S64x2048, .f32⟩
  | 68 => ⟨S64x2048, .f32⟩
  | 69 => ⟨S64x2048, .f32⟩
  | 70 => ⟨S_, .f32⟩
  | 71 => ⟨S64x2048, .f32⟩
  | 72 => ⟨S64x2048, .f32⟩
  | 73 => ⟨S64x2048, .f32⟩
  | 74 => ⟨S64x2048, .f32⟩
  | 75 => ⟨S_, .f32⟩
  | 76 => ⟨S64x2048, .f32⟩
  | 77 => ⟨S64x2048, .f32⟩
  | 78 => ⟨S_, .f32⟩
  | 79 => ⟨S64x2048, .f32⟩
  | 80 => ⟨S64x2048, .f32⟩
  | 81 => ⟨S64x2048, .f32⟩
  | 82 => ⟨S_, .f32⟩
  | 83 => ⟨S64x2048, .f32⟩
  | 84 => ⟨S64x2048, .f32⟩
  | 85 => ⟨S64x2048, .f32⟩
  | 86 => ⟨S64x2048, .f32⟩
  | 87 => ⟨S_, .f32⟩
  | 88 => ⟨S16384x2048, .f32⟩
  | 89 => ⟨S16384x2048, .f32⟩
  | 90 => ⟨S2048x64, .f32⟩
  | 91 => ⟨S16384x64, .f32⟩
  | 92 => ⟨S2048x64, .f32⟩
  | 93 => ⟨S16384x64, .f32⟩
  | 94 => ⟨S16384x64, .f32⟩
  | 95 => ⟨S_, .f32⟩
  | 96 => ⟨S16384x64, .f32⟩
  | 97 => ⟨S16384x64, .f32⟩
  | 98 => ⟨S_, .f32⟩
  | 99 => ⟨S_, .f32⟩
  | 100 => ⟨S_, .f32⟩
  | 101 => ⟨S16384x64, .f32⟩
  | 102 => ⟨S16384x64, .f32⟩
  | 103 => ⟨S_, .f32⟩
  | 104 => ⟨S16384x64, .f32⟩
  | 105 => ⟨S16384x64, .f32⟩
  | 106 => ⟨S16384x64, .f32⟩
  | 107 => ⟨S16384x64, .f32⟩
  | 108 => ⟨S_, .f32⟩
  | 109 => ⟨S16384x2048, .f32⟩
  | 110 => ⟨S16384x2048, .f32⟩
  | 111 => ⟨S2048x64, .f32⟩
  | 112 => ⟨S16384x64, .f32⟩
  | 113 => ⟨S2048x64, .f32⟩
  | 114 => ⟨S16384x64, .f32⟩
  | 115 => ⟨S16384x64, .f32⟩
  | 116 => ⟨S_, .f32⟩
  | 117 => ⟨S16384x64, .f32⟩
  | 118 => ⟨S16384x64, .f32⟩
  | 119 => ⟨S_, .f32⟩
  | 120 => ⟨S_, .f32⟩
  | 121 => ⟨S_, .f32⟩
  | 122 => ⟨S16384x64, .f32⟩
  | 123 => ⟨S16384x64, .f32⟩
  | 124 => ⟨S_, .f32⟩
  | 125 => ⟨S16384x64, .f32⟩
  | 126 => ⟨S16384x64, .f32⟩
  | 127 => ⟨S16384x64, .f32⟩
  | _ => ⟨S16384x2048, .f32⟩

abbrev hbmTy0_1 (i : Nat) : BufTy := match i % 128 with
  | 0 => ⟨S16384x64, .f32⟩
  | 1 => ⟨S16384x64, .f32⟩
  | 2 => ⟨S16384x128, .f32⟩
  | 3 => ⟨S1x128, .f32⟩
  | 4 => ⟨S16384x128, .f32⟩
  | 5 => ⟨S16384x128, .f32⟩
  | 6 => ⟨S16384x10, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_cst_19 : Ref sig .tc := ⟨.hbm, 98, rfl⟩
abbrev main_cst_20 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_21 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_cst_24 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  bcast_S_S16384x2048 : S_.BroadcastsInDim S16384x2048 (![] : Fin 0 → Fin S16384x2048.rank)
  transposes_S64x2048_S2048x64_1_0 : S64x2048.Transposes [1, 0] S2048x64
  bcast_S_S16384x64 : S_.BroadcastsInDim S16384x64 (![] : Fin 0 → Fin S16384x64.rank)
  concatenates_S16384x64_S16384x64_S16384x128_d1 : Shape.Concatenates [S16384x64, S16384x64] S16384x128 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x2048_S2048x64_S16384x64_1_0_0_1_n_n_wf : DotDims.WF S16384x2048 S2048x64 S16384x64 [1] [0] [0] [1] [] []
  dot_S16384x128_S128x10_S16384x10_1_0_0_1_n_n_wf : DotDims.WF S16384x128 S128x10 S16384x10 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def dot_S16384x128_S128x10_S16384x10_1_0_0_1_n_n : DotDims S16384x128 S128x10 S16384x10 where
  lhsContracting := [1]
  rhsContracting := [0]
  lhsNonContracting := [0]
  rhsNonContracting := [1]
  lhsBatch := []
  rhsBatch := []
  wf := dot_S16384x128_S128x10_S16384x10_1_0_0_1_n_n_wf

class Facts : Prop extends Facts₀ where

variable [Facts]
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«146459_j21689584844984_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.ClauseAlgebra.lean ====
/-
  The clause layer of a fuzzy-pattern Tsetlin machine, as two formulas over the extended reals and the laws joining them.

  A clause c has a row of logits λ(c, ·) over the features; a sample has a row ξ of feature values. With hard literals
  the clause's penalty is the number of violated literals: a positive literal (λ > 0) is violated to the degree 1 - ξ,
  an inverted one (λ < 0) to the degree ξ. One side computes it as

      ∑_f (1 - ξ f) · [λ f > 0]  +  ∑_f ξ f · [λ f < 0]

  with the indicators written through straight-through estimators (sign + tanh - tanh, max(·, 0) + σ - σ), the other as

      ∑_f ξ f · (-(sign (λ f)))  +  ∑_f [λ f > 0].

  On real numbers the soft terms cancel and  (1 - ξ)·[λ > 0] + ξ·[λ < 0] = ξ·(-(sign λ)) + [λ > 0]  term by term.
  The clause's strength is exp(-(clip(penalty/512, 0, 10))); the votes of the first 64 clauses count positively, those of
  the last 64 negatively, a bias is added per clause and the result is contracted with the voting matrix; the sign and
  the bias may instead be folded into the matrix and into a separate row,  ∑ (±s + β)·v = ∑ s·(±v) + ∑ β·v,  which is
  distributivity and therefore needs real numbers.
-/
import Idealize.ShloMosaic.PureOps.Ideal
import Idealize.ShloMosaic.PureOps.Ideal.Laws
import Idealize.ShloMosaic.Lib.ValueIdx

noncomputable section

namespace Cert.Clause

open Idealize.ShloMosaic Idealize.ShloMosaic.ValueIdx

/-! ## The four constants -/

/-- 1.0 -/
abbrev cOne : EReal := Ideal.ofBits .f32 0x3F800000#32
/-- 0.0 -/
abbrev cZero : EReal := Ideal.ofBits .f32 0x00000000#32
/-- 4 / 2048 = 1 / 512 -/
abbrev cScale : EReal := Ideal.ofBits .f32 0x3B000000#32
/-- 10.0 -/
abbrev cTen : EReal := Ideal.ofBits .f32 0x41200000#32

theorem cOne_eq : cOne = 1 := by
  simp [cOne, Ideal.ofBits, Ideal.ieee, -EReal.coe_mul]; norm_num

theorem cZero_eq : cZero = 0 := Ideal.ofBits_zero_f32

theorem cScale_eq : cScale = ((1 / 512 : ℝ) : EReal) := by
  simp [cScale, Ideal.ofBits, Ideal.ieee, -EReal.coe_mul]; norm_num

theorem cTen_eq : cTen = ((10 : ℝ) : EReal) := by
  simp [cTen, Ideal.ofBits, Ideal.ieee, -EReal.coe_mul]; norm_num

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-! ## One logit -/

/-- sign with a straight-through tanh: sign λ + tanh (λ/1) - tanh (λ/1). -/
def ste (l : EReal) : EReal := (Ideal.sign l + Ideal.tanh (Ideal.div l cOne)) - Ideal.tanh (Ideal.div l cOne)

/-- the logistic function of λ/1, spelled 1 / (1 + exp (-(λ/1))). -/
def sg (l : EReal) : EReal := Ideal.div cOne (cOne + Ideal.exp (-(Ideal.div l cOne)))

/-- the logistic function of (-λ)/1. -/
def sgi (l : EReal) : EReal := Ideal.div cOne (cOne + Ideal.exp (-(Ideal.div (-l) cOne)))

/-- the positive-literal mask with its straight-through sigmoid. -/
def posLit (l : EReal) : EReal := (max (ste l) cZero + sg l) - sg l

/-- the inverted-literal mask with its straight-through sigmoid. -/
def invLit (l : EReal) : EReal := (max (-(ste l)) cZero + sgi l) - sgi l

/-- the 0/1 word of λ > 0, converted to a float. -/
def gt (l : EReal) : EReal := (((Ideal.cmp .ogt l cZero).toNat : ℝ) : EReal)

theorem div_cOne (l : ℝ) : Ideal.div (l : EReal) cOne = (l : EReal) := by
  rw [cOne_eq]
  have := Ideal.div_coe (y := 1) one_ne_zero (l : EReal)
  simpa using this

theorem ste_coe (l : ℝ) : ste (l : EReal) = ((SignType.sign l : ℝ) : EReal) := by
  unfold ste
  rw [div_cOne, Ideal.sign_coe, Ideal.tanh_coe, ← EReal.coe_add, ← EReal.coe_sub]
  congr 1; ring

theorem sg_coe (l : ℝ) : ∃ s : ℝ, sg (l : EReal) = (s : EReal) := by
  unfold sg
  rw [div_cOne, ← EReal.coe_neg, Ideal.exp_coe, cOne_eq, ← EReal.coe_one, ← EReal.coe_add]
  have hne : (1 + Real.exp (-l)) ≠ 0 := by positivity
  exact ⟨1 * (1 / (1 + Real.exp (-l))), by rw [Ideal.div_coe hne, ← EReal.coe_mul]⟩

theorem sgi_coe (l : ℝ) : ∃ s : ℝ, sgi (l : EReal) = (s : EReal) := by
  have := sg_coe (-l)
  unfold sg at this
  unfold sgi
  rwa [EReal.coe_neg] at this

theorem posLit_coe (l : ℝ) : posLit (l : EReal) = ((if 0 < l then (1 : ℝ) else 0 : ℝ) : EReal) := by
  obtain ⟨s, hs⟩ := sg_coe l
  unfold posLit
  rw [hs, ste_coe, cZero_eq, ← EReal.coe_zero, ← coe_max, ← EReal.coe_add, ← EReal.coe_sub]
  congr 1
  rcases lt_trichotomy l 0 with h | h | h
  · rw [sign_neg h, if_neg (not_lt.mpr h.le)]; simp
  · subst h; simp
  · rw [sign_pos h, if_pos h]; simp

theorem invLit_coe (l : ℝ) : invLit (l : EReal) = ((if l < 0 then (1 : ℝ) else 0 : ℝ) : EReal) := by
  obtain ⟨s, hs⟩ := sgi_coe l
  unfold invLit
  rw [hs, ste_coe, cZero_eq, ← EReal.coe_zero, ← EReal.coe_neg, ← coe_max, ← EReal.coe_add, ← EReal.coe_sub]
  congr 1
  rcases lt_trichotomy l 0 with h | h | h
  · rw [sign_neg h, if_pos h]; simp
  · subst h; simp
  · rw [sign_pos h, if_neg (not_lt.mpr h.le)]; simp

theorem gt_coe (l : ℝ) : gt (l : EReal) = ((if 0 < l then (1 : ℝ) else 0 : ℝ) : EReal) := by
  unfold gt Ideal.cmp
  rw [cZero_eq]
  congr 1
  by_cases h : 0 < l
  · have : ((0 : EReal) < (l : EReal)) := by exact_mod_cast h
    simp [h, this]
  · have : ¬ ((0 : EReal) < (l : EReal)) := by exact_mod_cast h
    simp [h, this]

theorem negSign_coe (l : ℝ) : -(Ideal.sign (l : EReal)) = ((-(SignType.sign l : ℝ) : ℝ) : EReal) := by
  rw [Ideal.sign_coe, EReal.coe_neg]

/-! ## One clause against one sample -/

section Row
variable {ι : Type} [Fintype ι]

/-- The penalty through the hard signs and the count of positive literals. -/
def penK (ξ l : ι → EReal) : EReal := (∑ f, ξ f * -(Ideal.sign (l f))) + (cZero + ∑ f, gt (l f))

/-- The penalty through the two straight-through masks. -/
def penR (ξ l : ι → EReal) : EReal := (∑ f, (cOne - ξ f) * posLit (l f)) + (∑ f, ξ f * invLit (l f))

theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem literal_split (l x : ℝ) :
    (1 - x) * (if 0 < l then (1 : ℝ) else 0) + x * (if l < 0 then (1 : ℝ) else 0)
      = x * (-(SignType.sign l : ℝ)) + (if 0 < l then (1 : ℝ) else 0) := by
  rcases lt_trichotomy l 0 with h | h | h
  · have h' : ¬ 0 < l := not_lt.mpr h.le
    simp [h, h', sign_neg h]
  · subst h; simp
  · have h' : ¬ l < 0 := not_lt.mpr h.le
    simp [h, h', sign_pos h]; ring

/-- The real number both penalties are. -/
def penReal (x l : ι → ℝ) : ℝ := (∑ f, x f * (-(SignType.sign (l f) : ℝ))) + ∑ f, (if 0 < l f then (1 : ℝ) else 0)

theorem penK_coe (x l : ι → ℝ) : penK (fun f => (x f : EReal)) (fun f => (l f : EReal)) = (penReal x l : EReal) := by
  unfold penK penReal
  simp only [negSign_coe, gt_coe, ← EReal.coe_mul, ← coe_sum, cZero_eq, zero_add, ← EReal.coe_add]

theorem penR_coe (x l : ι → ℝ) : penR (fun f => (x f : EReal)) (fun f => (l f : EReal)) = (penReal x l : EReal) := by
  unfold penR penReal
  simp only [posLit_coe, invLit_coe, cOne_eq, ← EReal.coe_one, ← EReal.coe_sub, ← EReal.coe_mul, ← coe_sum, ← EReal.coe_add]
  congr 1
  rw [← Finset.sum_add_distrib, ← Finset.sum_add_distrib]
  exact Finset.sum_congr rfl fun f _ => literal_split _ _

end Row

/-- The strength from the penalty, written 0 - clip. -/
def clipexpK (p : EReal) : EReal := Ideal.exp (cZero - min cTen (max cZero (p * cScale)))

/-- The strength from the penalty, written -(clip). -/
def clipexpR (p : EReal) : EReal := Ideal.exp (-(min cTen (max cZero (p * cScale))))

theorem clipexpK_eq (p : EReal) : clipexpK p = clipexpR p := by
  unfold clipexpK clipexpR
  rw [cZero_eq, zero_sub]

theorem clipexpR_coe (r : ℝ) : ∃ s : ℝ, clipexpR (r : EReal) = (s : EReal) := by
  unfold clipexpR
  rw [cZero_eq, cTen_eq, cScale_eq, ← EReal.coe_mul, ← EReal.coe_zero, ← coe_max, ← coe_min, ← EReal.coe_neg,
    Ideal.exp_coe]
  exact ⟨_, rfl⟩

/-! ## All clauses: folding the signs and the bias into the weights -/

/-- +1 for the first half of the clauses, -1 for the second. -/
def sgv (c : Fin 128) : EReal := if c.val < 64 then cOne else -cOne

theorem fold_votes (S β v : Fin 128 → ℝ) :
    (∑ c : Fin 128, (S c : EReal) * (sgv c * (v c : EReal))) + (∑ c : Fin 128, (β c : EReal) * (v c : EReal))
      = ∑ c : Fin 128, ((if c.val < 64 then (S c : EReal) else -(S c : EReal)) + (β c : EReal)) * (v c : EReal) := by
  rw [← Finset.sum_add_distrib]
  refine Finset.sum_congr rfl fun c _ => ?_
  unfold sgv
  rw [cOne_eq]
  by_cases h : c.val < 64
  · rw [if_pos h, if_pos h, one_mul, ← EReal.coe_mul, ← EReal.coe_mul, ← EReal.coe_add, ← EReal.coe_add, ← EReal.coe_mul]
    congr 1; ring
  · rw [if_neg h, if_neg h, ← EReal.coe_one, ← EReal.coe_neg, ← EReal.coe_neg, ← EReal.coe_mul, ← EReal.coe_mul,
      ← EReal.coe_mul, ← EReal.coe_add, ← EReal.coe_add, ← EReal.coe_mul]
    congr 1; ring

/-! ## The two results as formulas over the argument arrays -/

section Forms

variable (X : (⟨2, ![16384, 2048]⟩ : Shape).Idx → EReal) (P N : (⟨2, ![64, 2048]⟩ : Shape).Idx → EReal)
  (B : (⟨1, ![128]⟩ : Shape).Idx → EReal) (Vt : (⟨2, ![128, 10]⟩ : Shape).Idx → EReal)

/-- Row c of the 128 × 2048 clause logits: the first 64 rows are the positive clauses', the last 64 the negative ones'. -/
def rowOf (c : Fin 128) (f : Fin 2048) : EReal :=
  if h : c.val < 64 then P (ix2 (⟨c.val, h⟩ : Fin 64) f) else N (ix2 (⟨c.val - 64, by omega⟩ : Fin 64) f)

/-- Entry (b, k) with the signs folded into the votes and the bias contracted separately. -/
def kernelForm : (⟨2, ![16384, 10]⟩ : Shape).Idx → EReal := fun i =>
  (∑ c : Fin 128, clipexpK (penK (fun f => X (ix2 (i 0) f)) (rowOf P N c)) * (sgv c * Vt (ix2 c (i 1))))
    + ∑ c : Fin 128, B (ix1 c) * Vt (ix2 c (i 1))

/-- Entry (b, k) with signed strengths plus bias contracted with the votes. -/
def refForm : (⟨2, ![16384, 10]⟩ : Shape).Idx → EReal := fun i =>
  ∑ c : Fin 128, ((if c.val < 64 then clipexpR (penR (fun f => X (ix2 (i 0) f)) (rowOf P N c))
      else -(clipexpR (penR (fun f => X (ix2 (i 0) f)) (rowOf P N c)))) + B (ix1 c)) * Vt (ix2 c (i 1))

/-- One clause against one sample, both real: the two strengths are one real number. -/
theorem strength_real {ι : Type} [Fintype ι] (ξ l : ι → EReal) (hξ : ∀ f, ∃ r : ℝ, ξ f = (r : EReal))
    (hl : ∀ f, ∃ r : ℝ, l f = (r : EReal)) :
    ∃ s : ℝ, clipexpK (penK ξ l) = (s : EReal) ∧ clipexpR (penR ξ l) = (s : EReal) := by
  choose x hx using hξ
  choose y hy using hl
  have eξ : ξ = fun f => (x f : EReal) := funext hx
  have el : l = fun f => (y f : EReal) := funext hy
  obtain ⟨s, hs⟩ := clipexpR_coe (penReal x y)
  refine ⟨s, ?_, ?_⟩
  · rw [clipexpK_eq, eξ, el, penK_coe, hs]
  · rw [eξ, el, penR_coe, hs]

theorem forms_eq (hX : ∀ i, ∃ r : ℝ, X i = (r : EReal)) (hP : ∀ i, ∃ r : ℝ, P i = (r : EReal))
    (hN : ∀ i, ∃ r : ℝ, N i = (r : EReal)) (hB : ∀ i, ∃ r : ℝ, B i = (r : EReal)) (hV : ∀ i, ∃ r : ℝ, Vt i = (r : EReal)) :
    kernelForm X P N B Vt = refForm X P N B Vt := by
  funext i
  have hrow : ∀ (c : Fin 128) (f : Fin 2048), ∃ r : ℝ, rowOf P N c f = (r : EReal) := by
    intro c f
    unfold rowOf
    split
    · exact hP _
    · exact hN _
  choose S hSK hSR using fun c : Fin 128 =>
    strength_real (fun f => X (ix2 (i 0) f)) (rowOf P N c) (fun f => hX _) (hrow c)
  choose b hb using hB
  choose v hv using hV
  unfold kernelForm refForm
  simp only [hSK, hSR, hb, hv]
  exact fold_votes S (fun c => b (ix1 c)) (fun c => v (ix2 c (i 1)))

end Forms

end Cert.Clause

end
-- ==== Proof.KernelValue.lean ====
/-
  What the kernel's result array holds after the run, as ONE function of the five arrays its region stages.

  Grid point t works on the 1024 sample rows t·1024 … t·1024 + 1023. For each of them its body contracts the row with
  the 2048 × 128 weight matrix, adds the 1 × 128 row of per-clause counts, multiplies by 1/512, clips to [0, 10],
  exponentiates the negative, contracts the 128 strengths with the 128 × 10 vote matrix and adds a 1 × 10 bias row.
  So entry (b, k) of the result depends on row b of the samples only, and the sixteen blocks of 1024 rows tile the
  16384 rows: the result array is `outOf` of the staged arrays, everywhere.
-/
import proofs.«146459_j21689584844984_2_alg».proof.Proof.Gen.KernelIdeal.Value
import proofs.«146459_j21689584844984_2_alg».proof.Proof.LibRank2
import proofs.«146459_j21689584844984_2_alg».proof.Proof.ClauseAlgebra

set_option maxRecDepth 16384

noncomputable section

namespace Cert.KernelIdeal.Tile

open Idealize.ShloMosaic Idealize.ShloMosaic.TcCoe Idealize.ShloMosaic.ValueIdx Idealize.SL.Sem
open Cert.KernelIdeal Cert.KernelIdeal.Gen Cert.Clause
open Idealize.ShloMosaic.Pipeline (Dat)

/-! ## One tile -/

/-- Entry (r, k) of a tile's result: the strengths of row r against column k of the votes, plus the bias row's entry k. -/
theorem pay_apply (x0 : Vec Ideal S1024x2048 .f32) (x1 : Vec Ideal S2048x128 .bf16) (x2 : Vec Ideal S1x128 .f32)
    (x3 : Vec Ideal S128x10 .bf16) (x4 : Vec Ideal S1x10 .f32) (r : Fin 1024) (k : Fin 10) :
    k0_pay1 (F := Ideal) x0 x1 x2 x3 x4 (ix2 r k)
      = (∑ c : Fin 128, clipexpK ((∑ f : Fin 2048, x0 (ix2 r f) * x1 (ix2 f c)) + x2 (ix2 (0 : Fin 1) c)) * x3 (ix2 c k))
        + x4 (ix2 (0 : Fin 1) k) := by
  unfold k0_pay1
  show matmul dot_S1024x128_S128x10_S1024x10_1_0_0_1_n_n none _ _ _ (ix2 r k) + broadcastTo S1024x10 _ _ (ix2 r k) = _
  rw [Cert.Rank2.rowBias_vec_apply x4 _ _ r k]
  refine congrArg (· + _) ?_
  refine (Cert.MatmulAt.matmul_zero_plain_apply dot_S1024x128_S128x10_S1024x10_1_0_0_1_n_n_wf none _ _ r k).trans ?_
  refine Finset.sum_congr rfl fun c _ => ?_
  refine congr (congrArg HMul.hMul ?_) (by rw [shapeCast_self])
  unfold clipexpK
  simp only [truncf, exp, subf, minimumf, maximumf, mulf, addf, broadcast, Ideal.truncf_def, Ideal.exp_def, Ideal.subf_def,
    Ideal.minimumf_def, Ideal.maximumf_def, Ideal.mulf_def, Ideal.addf_def, Ideal.ofBits_def]
  have e1 : matmul (φ₁ := .bf16) (φ₂ := .bf16) dot_S1024x2048_S2048x128_S1024x128_1_0_0_1_n_n none (truncf FTy.bf16 x0 bitsLt_bf16_f32)
      (shapeCast (α := Ideal .bf16) S2048x128 x1 shapeCasts_S2048x128_S2048x128) (constant (F := Ideal) S1024x128 FTy.f32 0#32) (ix2 r c)
      = ∑ f : Fin 2048, x0 (ix2 r f) * x1 (ix2 f c) := by
    refine (Cert.MatmulAt.matmul_zero_plain_apply dot_S1024x2048_S2048x128_S1024x128_1_0_0_1_n_n_wf none _ _ r c).trans ?_
    rw [shapeCast_self]
    rfl
  rw [e1, Cert.Rank2.rowBias_vec_apply x2 _ _ r c]

/-! ## The whole array -/

/-- The result array from the samples `X`, the weights `W`, the count row `PB`, the votes `VS` and the bias row `CR`. -/
def outOf (X : S16384x2048.Idx → Elt Ideal .f32) (W : S2048x128.Idx → Elt Ideal .bf16) (PB : S1x128.Idx → Elt Ideal .f32)
    (VS : S128x10.Idx → Elt Ideal .bf16) (CR : S1x10.Idx → Elt Ideal .f32) : S16384x10.Idx → Elt Ideal .f32 :=
  fun i => (∑ c : Fin 128, clipexpK ((∑ f : Fin 2048, X (ix2 (i 0) f) * W (ix2 f c)) + PB (ix2 (0 : Fin 1) c)) * VS (ix2 c (i 1)))
    + CR (ix2 (0 : Fin 1) (i 1))

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the sixteen points: the samples' block moves with the result's down the rows, every other
    window stays at its one block. -/
theorem index_maps : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of `outOf` of the arrays as the region finds them. -/
theorem flushed_eq (c : Dev nD) (t : Fin cfg0.N) :
    (dats m 0 c).flushed 5 t = ((cfg0.win 5).blk t).view.read (Elt Ideal)
      (outOf (V m c main_arg0) (V m c main_v24) (V m c main_v12) (V m c main_v20) (V m c main_v22)) := by
  rw [Cert.KernelIdeal.Value.flushed5]
  unfold out0_5
  rw [View.canon_unit_zero zero_offsets]
  simp only [View.ld_unit_zero (S := S1024x2048) zero_offsets, View.ld_unit_zero (S := S2048x128) zero_offsets,
    View.ld_unit_zero (S := S1x128) zero_offsets, View.ld_unit_zero (S := S128x10) zero_offsets,
    View.ld_unit_zero (S := S1x10) zero_offsets]
  obtain ⟨e00, e01, e10, e11, e20, e21, e30, e31, e40, e41, e50, e51⟩ := index_maps t
  funext j
  obtain ⟨r, k, rfl⟩ : ∃ (r : Fin 1024) (k : Fin 10), j = ix2 r k := ⟨j 0, j 1, eq_ix2 j⟩
  refine (pay_apply (iblk m c 0 t) (iblk m c 1 t) (iblk m c 2 t) (iblk m c 3 t) (iblk m c 4 t) r k).trans ?_
  have hk : ((((cfg0.win 5).blk t).view.emb (ix2 r k)) 1).val = k.val := by
    show win0_5.index t (1 : Fin 2) * 10 + 1 * k.val = k.val
    omega
  have h0 : ∀ f : Fin 2048, ((cfg0.win 0).blk t).view.emb (ix2 r f) = ix2 ((((cfg0.win 5).blk t).view.emb (ix2 r k)) 0) f := by
    intro f; funext a; apply Fin.ext
    match a with
    | ⟨0, _⟩ => show win0_0.index t (0 : Fin 2) * 1024 + 1 * r.val = win0_5.index t (0 : Fin 2) * 1024 + 1 * r.val; omega
    | ⟨1, _⟩ => show win0_0.index t (1 : Fin 2) * 2048 + 1 * f.val = f.val; omega
  have h1 : ∀ (f : Fin 2048) (c' : Fin 128), ((cfg0.win 1).blk t).view.emb (ix2 f c') = ix2 f c' := by
    intro f c'; funext a; apply Fin.ext
    match a with
    | ⟨0, _⟩ => show win0_1.index t (0 : Fin 2) * 2048 + 1 * f.val = f.val; omega
    | ⟨1, _⟩ => show win0_1.index t (1 : Fin 2) * 128 + 1 * c'.val = c'.val; omega
  have h2 : ∀ c' : Fin 128, ((cfg0.win 2).blk t).view.emb (ix2 (0 : Fin 1) c') = ix2 (0 : Fin 1) c' := by
    intro c'; funext a; apply Fin.ext
    match a with
    | ⟨0, _⟩ => show win0_2.index t (0 : Fin 2) * 1 + 1 * 0 = 0; omega
    | ⟨1, _⟩ => show win0_2.index t (1 : Fin 2) * 128 + 1 * c'.val = c'.val; omega
  have h3 : ∀ c' : Fin 128, ((cfg0.win 3).blk t).view.emb (ix2 c' k) = ix2 c' ((((cfg0.win 5).blk t).view.emb (ix2 r k)) 1) := by
    intro c'; funext a; apply Fin.ext
    match a with
    | ⟨0, _⟩ => show win0_3.index t (0 : Fin 2) * 128 + 1 * c'.val = c'.val; omega
    | ⟨1, _⟩ => show win0_3.index t (1 : Fin 2) * 10 + 1 * k.val = _; rw [hk]; omega
  have h4 : ((cfg0.win 4).blk t).view.emb (ix2 (0 : Fin 1) k) = ix2 (0 : Fin 1) ((((cfg0.win 5).blk t).view.emb (ix2 r k)) 1) := by
    funext a; apply Fin.ext
    match a with
    | ⟨0, _⟩ => show win0_4.index t (0 : Fin 2) * 1 + 1 * 0 = 0; omega
    | ⟨1, _⟩ => show win0_4.index t (1 : Fin 2) * 10 + 1 * k.val = _; rw [hk]; omega
  show _ = outOf _ _ _ _ _ (((cfg0.win 5).blk t).view.emb (ix2 r k))
  unfold outOf
  refine congr (congrArg HAdd.hAdd (Finset.sum_congr rfl fun c' _ => ?_)) ?_
  · refine congr (congrArg HMul.hMul (congrArg clipexpK (congr (congrArg HAdd.hAdd (Finset.sum_congr rfl fun f _ => ?_)) ?_))) ?_
    · exact congr (congrArg HMul.hMul (congrArg (fun z => (V m c main_arg0 z : EReal)) (h0 f)))
        (congrArg (fun z => (V m c main_v24 z : EReal)) (h1 f c'))
    · exact congrArg (fun z => (V m c main_v12 z : EReal)) (h2 c')
    · exact congrArg (fun z => (V m c main_v20 z : EReal)) (h3 c')
  · exact congrArg (fun z => (V m c main_v22 z : EReal)) h4

/-- An index of the result is in point t's block iff each coordinate is in the block's range on its axis. -/
theorem mem_blk (t : Fin cfg0.N) (i : S16384x10.Idx) :
    i ∈ ((cfg0.win 5).blk t).view.set ↔ ∀ a : Fin 2, win0_5.index t a * S1024x10.size a ≤ (i a).val ∧ (i a).val < win0_5.index t a * S1024x10.size a + S1024x10.size a := by
  show i ∈ ((View.whole main_v25).slice (win0_5.rect t)).set ↔ _
  rw [View.set_slice_whole, Rect.mem_set_unit]
  exact Iff.rfl

/-- Row b of the result lies in the block of point b / 1024. -/
theorem covered (i : S16384x10.Idx) :
    ∃ t : Fin cfg0.N, (cfg0.win 5).flush t = true ∧ i ∈ ((cfg0.win 5).blk t).view.set := by
  have hi0 : (i 0).val < 16384 := (i 0).isLt
  have hi1 : (i 1).val < 10 := (i 1).isLt
  let t : Fin cfg0.N := ⟨(i 0).val / 1024, by show (i 0).val / 1024 < 16; omega⟩
  obtain ⟨_, _, _, _, _, _, _, _, _, _, e50, e51⟩ := index_maps t
  have e50' : win0_5.index t (0 : Fin 2) = (i 0).val / 1024 := e50
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 10 ≤ (i 1).val ∧ (i 1).val < win0_5.index t (1 : Fin 2) * 10 + 10; omega

/-- The result array after the run. -/
theorem final (c : Dev nD) : (dats m 0 c).arrAt 5 cfg0.N
    = outOf (V m c main_arg0) (V m c main_v24) (V m c main_v12) (V m c main_v20) (V m c main_v22) :=
  (dats m 0 c).arrAt_eq_of_cover 5 _ (fun t _ => flushed_eq m c t) covered

end Cert.KernelIdeal.Tile

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.StagedArrays.lean ====
/-
  The four arrays the host computes for the kernel before launching it, each read at an entry.

  * the weights, 2048 × 128: entry (f, q) is minus the sign of logit f of clause q (the two logit arrays stacked,
    sign, negate, transpose, narrow the format);
  * the count row, 1 × 128: entry (0, q) is the number of positive logits of clause q, a sum of 0/1 words over the features;
  * the signed votes, 128 × 10: entry (q, k) is the vote of clause q for class k, with the sign of the clause's half;
  * the bias row, 1 × 10: entry (0, k) is the clause biases contracted with column k of the votes.
-/
import proofs.«146459_j21689584844984_2_alg».proof.Proof.Gen.KernelIdeal.Frame
import proofs.«146459_j21689584844984_2_alg».proof.Proof.LibRank2
import proofs.«146459_j21689584844984_2_alg».proof.Proof.LibKeepdims
import proofs.«146459_j21689584844984_2_alg».proof.Proof.ClauseAlgebra
import Idealize.ShloMosaic.Lib.StableHlo.Run
import Idealize.ShloMosaic.Lib.ValueLayout

noncomputable section

namespace Cert.KernelIdeal.Staged

open Idealize.ShloMosaic Idealize.ShloMosaic.TcCoe Idealize.ShloMosaic.ValueIdx Idealize.SL.Sem Idealize.ShloMosaic.StableHlo
open Cert.KernelIdeal Cert.KernelIdeal.Gen Cert.Clause

/-- The number of positive logits in each row of a 64 × 2048 logit array, as the host computes it. -/
def rowCount (A : S64x2048.Idx → EReal) : S64.Idx → EReal :=
  Host.reduceAdd (F := Ideal) (φ := .f32)
    (uitofp .f32 (cmpf .ogt (F := Ideal) (φ := .f32) A (broadcastInDim S64x2048 ![] bcast_S_S64x2048 (constant (F := Ideal) S_ .f32 0x00000000#32))))
    (constant (F := Ideal) S_ .f32 0x00000000#32) reducesTo_S64x2048_S64_d1 h_S_

theorem rowCount_apply (A : S64x2048.Idx → EReal) (q : Fin 64) :
    rowCount A (ix1 q) = cZero + ∑ f : Fin 2048, gt (A (ix2 q f)) := by
  have hR : S64x2048.Reduces [1] S64 := by decide
  unfold rowCount Host.reduceAdd
  rw [Ideal.hostReduceAdd_def, Ideal.hostReduceAdd_single reducesTo_S64x2048_S64_d1 hR]
  refine congr (congrArg HAdd.hAdd rfl) ?_
  show ∑ f : Fin 2048, _ = _
  refine Finset.sum_congr rfl fun f _ => ?_
  have e : hR.lift (ix1 q) f = ix2 q f := funext fun a => Fin.ext (by
    match a with
    | ⟨0, _⟩ => rfl
    | ⟨1, _⟩ => rfl)
  rw [e]
  rfl

variable (m : (ℓ : Loc nD τ sig) → Buf (Elt Ideal) ℓ)

/-- The argument arrays on core c, as functions of an index. -/
abbrev aX (c : Dev nD) : S16384x2048.Idx → EReal := m ((c : Thread nD τ).loc main_arg0)
abbrev aP (c : Dev nD) : S64x2048.Idx → EReal := m ((c : Thread nD τ).loc main_arg1)
abbrev aN (c : Dev nD) : S64x2048.Idx → EReal := m ((c : Thread nD τ).loc main_arg2)
abbrev aB (c : Dev nD) : S128.Idx → EReal := m ((c : Thread nD τ).loc main_arg3)
abbrev aV (c : Dev nD) : S128x10.Idx → EReal := m ((c : Thread nD τ).loc main_arg4)

/-- The weights at (f, q). -/
theorem weights_apply (c : Dev nD) (f : Fin 2048) (q : Fin 128) :
    @Eq EReal (V m c main_v24 (ix2 f q)) (-(Ideal.sign (rowOf (aP m c) (aN m c) q f))) := by
  have e : @Eq (S2048x128.Idx → EReal) (V m c main_v24)
      (truncf (F := Ideal) (φ := .f32) .bf16 (transpose S2048x128 [1, 0] (Host.negf (F := Ideal) (φ := .f32) (Host.sign (F := Ideal) (φ := .f32) (concatenate S128x2048 0
          [⟨S64x2048, aP m c⟩, ⟨S64x2048, aN m c⟩]
          concatenates_S64x2048_S64x2048_S128x2048_d0))) transposes_S128x2048_S2048x128_1_0) bitsLt_bf16_f32) := by
    dsimp only [Gen.V, Gen.hostOps0]; after_results; all_goals rfl
  rw [e]
  simp only [truncf, Ideal.truncf_def]
  rw [transpose_apply [1, 0] _ transposes_S128x2048_S2048x128_1_0 (ix2 f q) (ix2 q f) (fun b => match b with
    | ⟨0, _⟩ => rfl
    | ⟨1, _⟩ => rfl)]
  simp only [Host.negf, Host.sign, Ideal.hostNegf_def, Ideal.negf_def, Ideal.hostUnary_sign_def]
  unfold rowOf
  split
  · next h => rw [Cert.Rank2.concat_rows_left _ _ _ q f (⟨q.val, h⟩ : Fin 64) rfl]
  · next h => rw [Cert.Rank2.concat_rows_right _ _ _ q f (⟨q.val - 64, by omega⟩ : Fin 64) (by show q.val - 64 + 64 = q.val; omega)]

/-- The count row at (0, q). -/
theorem counts_apply (c : Dev nD) (q : Fin 128) :
    @Eq EReal (V m c main_v12 (ix2 (0 : Fin 1) q)) (cZero + ∑ f : Fin 2048, gt (rowOf (aP m c) (aN m c) q f)) := by
  have e : @Eq (S1x128.Idx → EReal) (V m c main_v12)
      (shapeCast S1x128 (concatenate S128 0
          [⟨S64, rowCount (aP m c)⟩, ⟨S64, rowCount (aN m c)⟩]
          concatenates_S64_S64_S128_d0) shapeCasts_S128_S1x128) := by
    dsimp only [Gen.V, Gen.hostOps0]; after_results; all_goals rfl
  rw [e, shapeCast_a_1a_apply _ shapeCasts_S128_S1x128 0 q]
  unfold rowOf
  by_cases h : q.val < 64
  · simp only [dif_pos h]
    rw [concatenate_pair_apply_left 0 _ _ concatenates_S64_S64_S128_d0 (ix1 q) rfl (ix1 (⟨q.val, h⟩ : Fin 64)) (fun b => match b with
      | ⟨0, _⟩ => rfl)]
    exact rowCount_apply _ _
  · simp only [dif_neg h]
    rw [concatenate_pair_apply_right 0 _ _ concatenates_S64_S64_S128_d0 (ix1 q) rfl rfl (ix1 (⟨q.val - 64, by omega⟩ : Fin 64))
      (fun b hb => match b, hb with
        | ⟨0, _⟩, hb => (hb (Fin.ext rfl)).elim)
      (by show q.val - 64 + 64 = q.val; omega)]
    exact rowCount_apply _ _

/-- The signed votes at (q, k). -/
theorem votes_apply (c : Dev nD) (q : Fin 128) (k : Fin 10) :
    @Eq EReal (V m c main_v20 (ix2 q k)) (sgv q * aV m c (ix2 q k)) := by
  have e : @Eq (S128x10.Idx → EReal) (V m c main_v20)
      (truncf (F := Ideal) (φ := .f32) .bf16 (mulf (F := Ideal) (φ := .f32) (broadcastInDim (s := S128x1) S128x10 (![0, 1] : Fin 2 → Fin 2) bcast_S128x1_S128x10_0_1 (shapeCast S128x1 (concatenate S128 0
          [⟨S64, broadcastInDim S64 ![] bcast_S_S64 (constant (F := Ideal) S_ .f32 0x3F800000#32)⟩,
           ⟨S64, Host.negf (F := Ideal) (φ := .f32) (broadcastInDim S64 ![] bcast_S_S64 (constant (F := Ideal) S_ .f32 0x3F800000#32))⟩]
          concatenates_S64_S64_S128_d0) shapeCasts_S128_S128x1)) (aV m c)) bitsLt_bf16_f32) := by
    dsimp only [Gen.V, Gen.hostOps0]; after_results; all_goals rfl
  rw [e]
  simp only [truncf, mulf, Ideal.truncf_def, Ideal.mulf_def]
  refine congrArg (· * _) ?_
  rw [broadcastInDim_apply (![0, 1] : Fin 2 → Fin 2) bcast_S128x1_S128x10_0_1 _ (ix2 q k) (ix2 q (0 : Fin 1)) (fun a => match a with
    | ⟨0, _⟩ => by show q.val = if (128 : ℕ) = 1 then 0 else q.val; rw [if_neg (by decide)]
    | ⟨1, _⟩ => by show (0 : ℕ) = if (1 : ℕ) = 1 then 0 else k.val; rw [if_pos rfl]),
    Cert.Keepdims.shapeCast_a_a1_apply _ shapeCasts_S128_S128x1 q 0]
  unfold sgv
  by_cases h : q.val < 64
  · rw [if_pos h, concatenate_pair_apply_left 0 _ _ concatenates_S64_S64_S128_d0 (ix1 q) rfl (ix1 (⟨q.val, h⟩ : Fin 64)) (fun b => match b with
      | ⟨0, _⟩ => rfl)]
    rfl
  · rw [if_neg h, concatenate_pair_apply_right 0 _ _ concatenates_S64_S64_S128_d0 (ix1 q) rfl rfl (ix1 (⟨q.val - 64, by omega⟩ : Fin 64))
      (fun b hb => match b, hb with
        | ⟨0, _⟩, hb => (hb (Fin.ext rfl)).elim)
      (by show q.val - 64 + 64 = q.val; omega)]
    rfl

/-- The bias row at (0, k). -/
theorem biasRow_apply (c : Dev nD) (k : Fin 10) :
    @Eq EReal (V m c main_v22 (ix2 (0 : Fin 1) k)) (∑ q : Fin 128, aB m c (ix1 q) * aV m c (ix2 q k)) := by
  have e : @Eq (S1x10.Idx → EReal) (V m c main_v22)
      (Host.dotGeneral (F := Ideal) (φ₁ := .f32) (φ₂ := .f32) dot_S1x128_S128x10_S1x10_1_0_0_1_n_n none
          (shapeCast S1x128 (aB m c) shapeCasts_S128_S1x128) (aV m c)) := by
    dsimp only [Gen.V, Gen.hostOps0]; after_results; all_goals rfl
  rw [e]
  refine (Cert.Rank2.dotGeneral_plain_apply dot_S1x128_S128x10_S1x10_1_0_0_1_n_n_wf none _ _ (0 : Fin 1) k).trans ?_
  refine Finset.sum_congr rfl fun q _ => ?_
  rw [shapeCast_a_1a_apply _ shapeCasts_S128_S1x128 0 q]

end Cert.KernelIdeal.Staged

end
-- ==== Proof.KernelResult.lean ====
/-
  The kernel's result array is `kernelForm` of the argument arrays: the array is `outOf` of the five arrays the region
  stages (the samples as launched, and the four the host computed), and each of the four, read at an entry, is the
  expression of the arguments that `kernelForm` has in its place.
-/
import proofs.«146459_j21689584844984_2_alg».proof.Proof.KernelValue
import proofs.«146459_j21689584844984_2_alg».proof.Proof.StagedArrays

noncomputable section

namespace Cert.KernelIdeal.Result

open Idealize.ShloMosaic Idealize.ShloMosaic.TcCoe Idealize.ShloMosaic.ValueIdx Idealize.SL.Sem
open Cert.KernelIdeal Cert.KernelIdeal.Gen Cert.Clause Cert.KernelIdeal.Staged

variable (m : (ℓ : Loc nD τ sig) → Buf (Elt Ideal) ℓ) (ρ : Dev nD → PrngReg)

theorem array_eq (c : Dev nD) :
    Cert.KernelIdeal.Tile.outOf (V m c main_arg0) (V m c main_v24) (V m c main_v12) (V m c main_v20) (V m c main_v22)
      = kernelForm (aX m c) (aP m c) (aN m c) (aB m c) (aV m c) := by
  funext i
  unfold Cert.KernelIdeal.Tile.outOf kernelForm penK
  rw [V_main_arg0]
  refine congr (congrArg HAdd.hAdd (Finset.sum_congr rfl fun q _ => ?_)) (biasRow_apply m c (i 1))
  refine congr (congrArg HMul.hMul (congrArg clipexpK (congr (congrArg HAdd.hAdd (Finset.sum_congr rfl fun f _ => ?_))
    (counts_apply m c q)))) (votes_apply m c q (i 1))
  exact congrArg (fun z : EReal => aX m c (ix2 (i 0) f) * z) (weights_apply m c f q)

/-- The kernel's run: the result array ends at `kernelForm` of the arguments, the arguments unchanged. -/
theorem run : θ_run defs (onTc (τ := τ) (main (F := Ideal))) ⟨m, fun _ => 0, ρ⟩ fun r => ∀ c : Dev nD,
      r.2.mem ((c : Thread nD τ).loc main_v25) = kernelForm (aX m c) (aP m c) (aN m c) (aB m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Cert.KernelIdeal.Tile.final m c).trans (array_eq m c)), (h c).2⟩)
    (Cert.KernelIdeal.Value.run_blocks (F := Ideal) m ρ)

end Cert.KernelIdeal.Result

end
-- ==== Proof.RefValue.lean ====
/-
  The reference's result array, read at an entry, is `refForm` of the argument arrays.

  The reference builds the two literal masks of each logit array elementwise (sign with a straight-through tanh, then
  max(·, 0) with a straight-through sigmoid), contracts 1 - x with the positive masks and x with the inverted ones,
  adds, scales by 1/512, clips to [0, 10], exponentiates the negative; it negates the strengths of the second half of
  the clauses, lays the two halves side by side, adds the clause biases along the rows and contracts with the votes.
-/
import proofs.«146459_j21689584844984_2_alg».proof.Proof.Gen.ReferenceIdeal.Read
import proofs.«146459_j21689584844984_2_alg».proof.Proof.LibRank2
import proofs.«146459_j21689584844984_2_alg».proof.Proof.ClauseAlgebra

noncomputable section

namespace Cert.ReferenceIdeal.RefValue

open Idealize.ShloMosaic Idealize.ShloMosaic.ValueIdx
open Cert.ReferenceIdeal Cert.ReferenceIdeal.Gen Cert.ReferenceIdeal.Read Cert.Clause

/-! ## The masks, one logit at a time -/

theorem posMask_first (P : S64x2048.Idx → EReal) (j : S64x2048.Idx) : val_main_v23 (F := Ideal) P j = posLit (P j) := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, Ideal.hostDivf_def, Ideal.hostUnary_tanh_def, Ideal.hostUnary_sign_def, Ideal.hostUnary_exp_def, Ideal.hostNegf_def, Ideal.negf_def, Ideal.addf_def, Ideal.subf_def, Ideal.maximumf_def, Ideal.minimumf_def, Ideal.mulf_def, Ideal.ofBits_def, posLit, ste, sg, cOne, cZero]

theorem invMask_first (P : S64x2048.Idx → EReal) (j : S64x2048.Idx) : val_main_v37 (F := Ideal) P j = invLit (P j) := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, Ideal.hostDivf_def, Ideal.hostUnary_tanh_def, Ideal.hostUnary_sign_def, Ideal.hostUnary_exp_def, Ideal.hostNegf_def, Ideal.negf_def, Ideal.addf_def, Ideal.subf_def, Ideal.maximumf_def, Ideal.minimumf_def, Ideal.mulf_def, Ideal.ofBits_def, invLit, ste, sgi, cOne, cZero]

theorem posMask_second (N : S64x2048.Idx → EReal) (j : S64x2048.Idx) : val_main_v49 (F := Ideal) N j = posLit (N j) := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, Ideal.hostDivf_def, Ideal.hostUnary_tanh_def, Ideal.hostUnary_sign_def, Ideal.hostUnary_exp_def, Ideal.hostNegf_def, Ideal.negf_def, Ideal.addf_def, Ideal.subf_def, Ideal.maximumf_def, Ideal.minimumf_def, Ideal.mulf_def, Ideal.ofBits_def, posLit, ste, sg, cOne, cZero]

theorem invMask_second (N : S64x2048.Idx → EReal) (j : S64x2048.Idx) : val_main_v63 (F := Ideal) N j = invLit (N j) := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, Ideal.hostDivf_def, Ideal.hostUnary_tanh_def, Ideal.hostUnary_sign_def, Ideal.hostUnary_exp_def, Ideal.hostNegf_def, Ideal.negf_def, Ideal.addf_def, Ideal.subf_def, Ideal.maximumf_def, Ideal.minimumf_def, Ideal.mulf_def, Ideal.ofBits_def, invLit, ste, sgi, cOne, cZero]

/-! ## Where the contractions read their operands -/

theorem lhs67 (b : Fin 16384) (q : Fin 64) (k : Fin 2048) : lidx_main_v67 (ix2 b q) k = ix2 b k :=
  funext fun a => Fin.ext (by match a with | ⟨0, _⟩ => rfl | ⟨1, _⟩ => rfl)
theorem rhs67 (b : Fin 16384) (q : Fin 64) (k : Fin 2048) : idx_main_v66 (ridx_main_v67 (ix2 b q) k) = ix2 q k :=
  funext fun a => Fin.ext (by match a with | ⟨0, _⟩ => rfl | ⟨1, _⟩ => rfl)
theorem lhs69 (b : Fin 16384) (q : Fin 64) (k : Fin 2048) : lidx_main_v69 (ix2 b q) k = ix2 b k :=
  funext fun a => Fin.ext (by match a with | ⟨0, _⟩ => rfl | ⟨1, _⟩ => rfl)
theorem rhs69 (b : Fin 16384) (q : Fin 64) (k : Fin 2048) : idx_main_v68 (ridx_main_v69 (ix2 b q) k) = ix2 q k :=
  funext fun a => Fin.ext (by match a with | ⟨0, _⟩ => rfl | ⟨1, _⟩ => rfl)
theorem lhs79 (b : Fin 16384) (q : Fin 64) (k : Fin 2048) : lidx_main_v79 (ix2 b q) k = ix2 b k :=
  funext fun a => Fin.ext (by match a with | ⟨0, _⟩ => rfl | ⟨1, _⟩ => rfl)
theorem rhs79 (b : Fin 16384) (q : Fin 64) (k : Fin 2048) : idx_main_v78 (ridx_main_v79 (ix2 b q) k) = ix2 q k :=
  funext fun a => Fin.ext (by match a with | ⟨0, _⟩ => rfl | ⟨1, _⟩ => rfl)
theorem lhs81 (b : Fin 16384) (q : Fin 64) (k : Fin 2048) : lidx_main_v81 (ix2 b q) k = ix2 b k :=
  funext fun a => Fin.ext (by match a with | ⟨0, _⟩ => rfl | ⟨1, _⟩ => rfl)
theorem rhs81 (b : Fin 16384) (q : Fin 64) (k : Fin 2048) : idx_main_v80 (ridx_main_v81 (ix2 b q) k) = ix2 q k :=
  funext fun a => Fin.ext (by match a with | ⟨0, _⟩ => rfl | ⟨1, _⟩ => rfl)
theorem lhs93 (b : Fin 16384) (k : Fin 10) (q : Fin 128) : lidx_main_v93 (ix2 b k) q = ix2 b q :=
  funext fun a => Fin.ext (by match a with | ⟨0, _⟩ => rfl | ⟨1, _⟩ => rfl)
theorem rhs93 (b : Fin 16384) (k : Fin 10) (q : Fin 128) : ridx_main_v93 (ix2 b k) q = ix2 q k :=
  funext fun a => Fin.ext (by match a with | ⟨0, _⟩ => rfl | ⟨1, _⟩ => rfl)
theorem bias91 (b : Fin 16384) (q : Fin 128) : idx_main_v90 (idx_main_v91 (ix2 b q)) = ix1 q :=
  funext fun a => Fin.ext (by match a with | ⟨0, _⟩ => rfl)

/-! ## A clause's strength against a sample -/

theorem strength_first (X : S16384x2048.Idx → EReal) (P : S64x2048.Idx → EReal) (b : Fin 16384) (q : Fin 64) :
    val_main_v75 (F := Ideal) X P (ix2 b q) = clipexpR (penR (fun f => X (ix2 b f)) (fun f => P (ix2 q f))) := by
  simp only [val_main_v75_apply, val_main_v74_apply, val_main_v73_apply, val_main_v72_apply, val_main_v71_apply, val_main_v70_apply, val_main_v69_apply, val_main_v68_apply, val_main_v67_apply, val_main_v66_apply, val_main_v65_apply, val_main_v64_apply, val_main_call0_v4_apply, val_main_call0_v3_apply,
    val_main_call0_v2_apply, val_main_call0_v1_apply, val_main_call0_v0_apply, val_main_cst_17_apply, val_main_cst_18_apply, val_main_cst_19_apply, val_main_cst_20_apply,
    lhs67, rhs67, lhs69, rhs69, posMask_first, invMask_first, Ideal.hostDivf_def, Ideal.hostUnary_tanh_def, Ideal.hostUnary_sign_def, Ideal.hostUnary_exp_def, Ideal.hostNegf_def, Ideal.negf_def, Ideal.addf_def, Ideal.subf_def, Ideal.maximumf_def, Ideal.minimumf_def, Ideal.mulf_def, Ideal.ofBits_def, clipexpR, penR, cOne, cZero, cTen, cScale]

theorem strength_second (X : S16384x2048.Idx → EReal) (N : S64x2048.Idx → EReal) (b : Fin 16384) (q : Fin 64) :
    val_main_v88 (F := Ideal) X N (ix2 b q) = -(clipexpR (penR (fun f => X (ix2 b f)) (fun f => N (ix2 q f)))) := by
  simp only [val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_call1_v4_apply, val_main_call1_v3_apply,
    val_main_call1_v2_apply, val_main_call1_v1_apply, val_main_call1_v0_apply, val_main_cst_21_apply, val_main_cst_22_apply, val_main_cst_23_apply, val_main_cst_24_apply,
    lhs79, rhs79, lhs81, rhs81, posMask_second, invMask_second, Ideal.hostDivf_def, Ideal.hostUnary_tanh_def, Ideal.hostUnary_sign_def, Ideal.hostUnary_exp_def, Ideal.hostNegf_def, Ideal.negf_def, Ideal.addf_def, Ideal.subf_def, Ideal.maximumf_def, Ideal.minimumf_def, Ideal.mulf_def, Ideal.ofBits_def, clipexpR, penR, cOne, cZero, cTen, cScale]

/-! ## The result -/

theorem result_apply (X : S16384x2048.Idx → EReal) (P N : S64x2048.Idx → EReal) (B : S128.Idx → EReal) (Vt : S128x10.Idx → EReal)
    (b : Fin 16384) (k : Fin 10) :
    val_main_v93 (F := Ideal) X P N B Vt (ix2 b k) = refForm X P N B Vt (ix2 b k) := by
  rw [val_main_v93_apply]
  unfold refForm
  refine Finset.sum_congr rfl fun q _ => ?_
  rw [lhs93, rhs93, val_main_v92_apply, val_main_v91_apply, val_main_v90_apply, bias91, Ideal.addf_def]
  refine congrArg (fun z => (z + B (ix1 q)) * Vt (ix2 q k)) ?_
  unfold val_main_v89
  by_cases h : q.val < 64
  · rw [if_pos h, Cert.Rank2.concat_cols_left _ _ _ b q (⟨q.val, h⟩ : Fin 64) rfl, strength_first]
    refine congrArg (fun l => clipexpR (penR (fun f => X (ix2 b f)) l)) (funext fun f => ?_)
    unfold rowOf; rw [dif_pos h]
  · rw [if_neg h, Cert.Rank2.concat_cols_right _ _ _ b q (⟨q.val - 64, by omega⟩ : Fin 64) (by show q.val - 64 + 64 = q.val; omega),
      strength_second]
    refine congrArg (fun l => -(clipexpR (penR (fun f => X (ix2 b f)) l))) (funext fun f => ?_)
    unfold rowOf; rw [dif_neg h]

/-- The reference's result array is `refForm` of its arguments. -/
theorem result_eq (X : S16384x2048.Idx → EReal) (P N : S64x2048.Idx → EReal) (B : S128.Idx → EReal) (Vt : S128x10.Idx → EReal) :
    val_main_v93 (F := Ideal) X P N B Vt = refForm X P N B Vt := by
  funext i
  obtain ⟨b, k, rfl⟩ : ∃ (b : Fin 16384) (k : Fin 10), i = ix2 b k := ⟨i 0, i 1, eq_ix2 i⟩
  exact result_apply X P N B Vt b k

end Cert.ReferenceIdeal.RefValue

end
-- ==== Proof.FiniteInputs.lean ====
/-
  From the precondition to real numbers: every input array is tested entrywise by |x| < +inf, the five tests are joined
  by "and"; an extended real whose magnitude is below the top element is a real number.
-/
import proofs.«146459_j21689584844984_2_alg».proof.Pre_finite_inputs
import proofs.«146459_j21689584844984_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- An extended real whose magnitude compares below the pattern of +inf is a real number. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

theorem reals_of_pre (a0 : FVec Ideal S16384x2048 .f32) (a1 a2 : FVec Ideal S64x2048 .f32) (a3 : FVec Ideal S128 .f32)
    (a4 : FVec Ideal S128x10 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  change IntOp.andi (IntOp.andi (IntOp.andi (IntOp.andi _ _) _) _) _ = 1#1 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i),
    fun i => real_of_abs_lt (a4 i) (Host.reduce_andi_all _ _ _ _ _ e4 i)⟩

end Cert.Pre_finite_inputs.Finite

end
-- ==== Proof.lean ====
/-
  A fuzzy-pattern Tsetlin machine's forward pass, as a tiled kernel and as plain array code: equal as extended reals.

  Both compute, for sample b and class k,  ∑_c (± strength(b, c) + bias c) · votes(c, k),  where a clause's strength is
  exp(-(clip(penalty/512, 0, 10))) and its penalty counts the violated literals of the clause on the sample. The plain
  code writes the literal masks through straight-through estimators (hard value + soft - soft) and contracts 1 - x
  with the positive masks and x with the inverted ones; the kernel's host preparation uses the hard values directly,
  folds the two contractions into one product x · (-(sign logits)) plus a per-clause count of positive logits, folds the
  clause signs into the votes and the clause biases into a separate row; the kernel then runs sixteen tiles of 1024
  samples. On finite inputs the soft terms cancel, (1 - x)·[l > 0] + x·[l < 0] = x·(-(sign l)) + [l > 0], and the sign
  and bias fold by distributivity (Proof/ClauseAlgebra.lean). The kernel's array is read off its generated blockwise
  value (Proof/KernelValue.lean, Proof/StagedArrays.lean, Proof/KernelResult.lean), the plain code's off its generated
  run (Proof/RefValue.lean), and finiteness off the precondition (Proof/FiniteInputs.lean).
-/
import proofs.«146459_j21689584844984_2_alg».proof.Defs
import proofs.«146459_j21689584844984_2_alg».proof.Proof.Gen.Kernel
import proofs.«146459_j21689584844984_2_alg».proof.Proof.Gen.Kernel.Skeleton
import proofs.«146459_j21689584844984_2_alg».proof.Proof.Gen.Kernel.Launch
import proofs.«146459_j21689584844984_2_alg».proof.Proof.Gen.Kernel.Points
import proofs.«146459_j21689584844984_2_alg».proof.Proof.Gen.Kernel.Frame
import proofs.«146459_j21689584844984_2_alg».proof.Proof.Gen.KernelIdeal
import proofs.«146459_j21689584844984_2_alg».proof.Proof.Gen.KernelIdeal.Skeleton
import proofs.«146459_j21689584844984_2_alg».proof.Proof.Gen.KernelIdeal.Launch
import proofs.«146459_j21689584844984_2_alg».proof.Proof.Gen.KernelIdeal.Points
import proofs.«146459_j21689584844984_2_alg».proof.Proof.Gen.KernelIdeal.Frame
import proofs.«146459_j21689584844984_2_alg».proof.Proof.Gen.ReferenceIdeal
import proofs.«146459_j21689584844984_2_alg».proof.Proof.Gen.Pre_finite_inputs
import proofs.«146459_j21689584844984_2_alg».proof.Proof.Gen.KernelIdeal.Value
import proofs.«146459_j21689584844984_2_alg».proof.Proof.Gen.ReferenceIdeal.Run
import proofs.«146459_j21689584844984_2_alg».proof.Proof.Gen.ReferenceIdeal.Read
import proofs.«146459_j21689584844984_2_alg».proof.Proof.KernelResult
import proofs.«146459_j21689584844984_2_alg».proof.Proof.RefValue
import proofs.«146459_j21689584844984_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's array is the folded formula of the arguments, the plain code's the unfolded one; the arguments are
    real numbers by the precondition, where the two formulas agree. -/
theorem algebraic : Cert.algebraic_KernelIdeal_ReferenceIdeal := by
  intro m ρ m' ρ' hpre hagree
  refine ⟨fun c => Cert.Clause.kernelForm (Cert.KernelIdeal.Staged.aX m c) (Cert.KernelIdeal.Staged.aP m c)
    (Cert.KernelIdeal.Staged.aN m c) (Cert.KernelIdeal.Staged.aB m c) (Cert.KernelIdeal.Staged.aV m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, (hagree c).1, (hagree c).2.1, (hagree c).2.2.1, (hagree c).2.2.2.1,
    (hagree c).2.2.2.2, Cert.ReferenceIdeal.RefValue.result_eq]
  obtain ⟨h0, h1, h2, h3, h4⟩ := Cert.Pre_finite_inputs.Finite.reals_of_pre _ _ _ _ _ (hpre c)
  exact (Cert.Clause.forms_eq _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
